-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x2048 : Shape := ⟨2, ![128, 2048]⟩
abbrev S2048 : Shape := ⟨1, ![2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x2048x128 .f32) (main_arg1 : IVec S8x2048x2048 1) (main_arg2 : FVec F S128x2048 .f32) (main_arg3 : FVec F S2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S128x2048 .f32 := Host.absf main_arg2
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S128x2048 : Shape := ⟨2, ![128, 2048]⟩
abbrev S2048 : Shape := ⟨1, ![2048]⟩
abbrev S1x2048 : Shape := ⟨2, ![1, 2048]⟩
abbrev S1x2048x128 : Shape := ⟨3, ![1, 2048, 128]⟩
abbrev S1x512x2048 : Shape := ⟨3, ![1, 512, 2048]⟩
abbrev S2048x2048 : Shape := ⟨2, ![2048, 2048]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .i1⟩
  | .hbm, ⟨2, _⟩ => ⟨S128x2048, .f32⟩
  | .hbm, ⟨3, _⟩ => ⟨S2048, .f32⟩
  | .hbm, ⟨4, _⟩ => ⟨S1x2048, .f32⟩
  | .hbm, ⟨5, _⟩ => ⟨S8x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S128x2048, .f32⟩
  | .local _ .vmem, ⟨3, _⟩ => ⟨S1x2048, .f32⟩
  | .local _ .vmem, ⟨4, _⟩ => ⟨S1x512x2048, .f32⟩
  | .local _ .vmem, ⟨5, _⟩ => ⟨S1x512x2048, .f32⟩
  | .local _ .vmem, ⟨6, _⟩ => ⟨S2048x2048, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  h_S512x2048 : 0 < S512x2048.numel
  transposes_S2048x2048_p1_0_S2048x2048 : S2048x2048.Transposes [1, 0] S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S2048x128_S128x2048_S2048x2048_1_0_0_1_n_n_wf : DotDims.WF S2048x128 S128x2048 S2048x2048 [1] [0] [0] [1] [] []
  dot_S512x2048_S2048x2048_S512x2048_1_0_0_1_n_n_wf : DotDims.WF S512x2048 S2048x2048 S512x2048 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x2048 : Shape := ⟨2, ![128, 2048]⟩
abbrev S2048 : Shape := ⟨1, ![2048]⟩
abbrev S1x1x2048 : Shape := ⟨3, ![1, 1, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .i1⟩
  | .hbm, ⟨2, _⟩ => ⟨S128x2048, .f32⟩
  | .hbm, ⟨3, _⟩ => ⟨S2048, .f32⟩
  | .hbm, ⟨4, _⟩ => ⟨S8x2048x2048, .f32⟩
  | .hbm, ⟨5, _⟩ => ⟨S8x2048x2048, .f32⟩
  | .hbm, ⟨6, _⟩ => ⟨S1x1x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S128x2048_S8x2048x2048_2_0_01_1_n_n_wf : DotDims.WF S8x2048x128 S128x2048 S8x2048x2048 [2] [0] [0, 1] [1] [] []
  dot_S8x2048x2048_S8x2048x2048_S8x2048x2048_2_2_1_1_0_0_wf : DotDims.WF S8x2048x2048 S8x2048x2048 S8x2048x2048 [2] [2] [1] [1] [0] [0]
  dot_S8x2048x2048_S8x2048x2048_S8x2048x2048_2_1_1_2_0_0_wf : DotDims.WF S8x2048x2048 S8x2048x2048 S8x2048x2048 [2] [1] [1] [2] [0] [0]

variable [Facts₀]

def dot_S8x2048x128_S128x2048_S8x2048x2048_2_0_01_1_n_n : DotDims S8x2048x128 S128x2048 S8x2048x2048 where
  lhsContracting := [2]
  rhsContracting := [0]
  lhsNonContracting := [0, 1]
  rhsNonContracting := [1]
  lhsBatch := []
  rhsBatch := []
  wf := dot_S8x2048x128_S128x2048_S8x2048x2048_2_0_01_1_n_n_wf
def dot_S8x2048x2048_S8x2048x2048_S8x2048x2048_2_2_1_1_0_0 : DotDims S8x2048x2048 S8x2048x2048 S8x2048x2048 where
  lhsContracting := [2]
  rhsContracting := [2]
  lhsNonContracting := [1]
  rhsNonContracting := [1]
  lhsBatch := [0]
  rhsBatch := [0]
  wf := dot_S8x2048x2048_S8x2048x2048_S8x2048x2048_2_2_1_1_0_0_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.Pieces.lean ====
/-
  What one grid point leaves behind, as values of what it found.

  A grid point (b, q) finds the batch entry's feature block, the weights and the bias row in its input buffers, and a
  [2048, 2048] scratch. At q = 0 it first stores the projection of the features by the weights into the scratch; at
  every q it then reads 512 rows of the scratch from row 512·q on, the whole scratch and the bias, and stores one
  function of those three into its output block. So with S the scratch contents the point works from — the projection
  it has just stored when q = 0, what the point before left otherwise — the output block is the same function of
  (rows of S, S, bias) in both cases, and the scratch ends at S.
-/
import proofs.«135426_j85718957293654_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The 512 query rows a point at coordinates i reads of a [2048, 2048] matrix: rows from the point's row offset on,
    every column. -/
def rows (i : grid0.Coords) (S : Vec F S2048x2048 .bf16) : Vec F S512x2048 .bf16 :=
  View.ld S (Rect.unit (s := S2048x2048) (k0_off1 i) S512x2048.size (k0_off1_inb i))

/-- Away from a batch entry's first point the output block is the block function of the carried scratch. -/
theorem out_carried (c : Dev nD) (i : grid0.Coords) (a2 : Memref sig .tc .vmem S1x2048x128 .f32) (h2 : a2.IsWhole)
    (a3 : Memref sig .tc .vmem S128x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S2048x2048 .bf16) (h6 : a6.IsWhole)
    (hc : ¬cond0_0 i) (x0 : Vec F S1x2048x128 .f32) (x1 : Vec F S128x2048 .f32) (x2 : Vec F S1x2048 .f32) (xs0 : Vec F S2048x2048 .bf16) :
    out0_B_3 c i a2 h2 a3 h3 a4 h4 a5 h5 a6 h6 hc x0 x1 x2 xs0 = k0_pay2 (rows i xs0) xs0 x2 := by
  unfold out0_B_3
  rw [View.read_writes_eq_canon _ _ _ (cover0_B_3 c i a2 h2 a3 h3 a4 h4 a5 h5 a6 h6 hc x0 x1 x2 xs0)]
  unfold kernelRun0_B
  dsimp only
  rw [View.canon_unit_zero zeros3]
  simp only [View.readAt_eq_ld, h6.read_unread, h4.read_unread, View.ld_unit_zero (S := S2048x2048) zeros2,
    View.ld_unit_zero (S := S1x2048) zeros2]
  rfl

/-- At a batch entry's first point the scratch ends at the projection payload of the feature block and the weights. -/
theorem scratch_first (c : Dev nD) (i : grid0.Coords) (a2 : Memref sig .tc .vmem S1x2048x128 .f32) (h2 : a2.IsWhole)
    (a3 : Memref sig .tc .vmem S128x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S2048x2048 .bf16) (h6 : a6.IsWhole)
    (hc : cond0_0 i) (x0 : Vec F S1x2048x128 .f32) (x1 : Vec F S128x2048 .f32) (x2 : Vec F S1x2048 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeros2]
  simp only [View.readAt_eq_ld, h2.read_unread, h3.read_unread, View.ld_unit_zero (S := S1x2048x128) zeros3,
    View.ld_unit_zero (S := S128x2048) zeros2]

/-- And there the output block is the block function of that projection: both loads of the scratch read what the
    point has just stored. -/
theorem out_first (c : Dev nD) (i : grid0.Coords) (a2 : Memref sig .tc .vmem S1x2048x128 .f32) (h2 : a2.IsWhole)
    (a3 : Memref sig .tc .vmem S128x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S2048x2048 .bf16) (h6 : a6.IsWhole)
    (hc : cond0_0 i) (x0 : Vec F S1x2048x128 .f32) (x1 : Vec F S128x2048 .f32) (x2 : Vec F S1x2048 .f32) :
    out0_A_3 c i a2 h2 a3 h3 a4 h4 a5 h5 a6 h6 hc x0 x1 x2 = k0_pay2 (rows i (k0_pay1 x0 x1)) (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeros3, View.readCov_unit_zero (S := S2048x2048) _ zeros2, View.readAt_writes_junk_eq_canon,
    View.canon_unit_zero zeros2]
  simp only [View.readAt_eq_ld, h2.read_unread, h3.read_unread, h4.read_unread, View.ld_unit_zero (S := S1x2048x128) zeros3,
    View.ld_unit_zero (S := S128x2048) zeros2, View.ld_unit_zero (S := S1x2048) zeros2]
  rfl

end Cert.KernelIdeal.Pieces

end
-- ==== Proof.Attention.lean ====
/-
  Attention with one matrix in all three roles, on the extended reals.

  For one batch entry let P be the [2048, 2048] projection of its features, P n d = Σ_f X n f · W f d. Queries, keys and
  values are all P, and a bias is added per key:
      score n m  = Σ_d P n d · P m d + β m
      top n      = the maximum over m of score n m, folded from -∞
      mass n m   = exp (score n m - top n)
      total n    = Σ_m mass n m
      attend n d = Σ_m (mass n m / total n) · P m d
  and the whole result is attend of the batch entry's projection, row n, column d. Everything here is a definition over
  the extended reals with the library's exp and quotient; no law of arithmetic is needed to compare two programs that
  both compute these sums in these arrangements, only that a maximum with -∞ is the other argument and that the zero
  word is zero.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- -∞, as the f32 word from which both programs start a row's maximum. -/
abbrev negInf : EReal := Ideal.ofBits .f32 0xFF800000#32

/-- That word is the bottom of the extended reals, -/
theorem negInf_eq_bot : negInf = ⊥ := by simp [negInf, Ideal.ofBits, Ideal.ieee]

/-- so a maximum with it is the other argument, at every extended real. -/
theorem max_negInf (x : EReal) : max negInf x = x := by rw [negInf_eq_bot]; exact max_bot_left x

/-- Entry (n, d) of the projection of batch entry b: the features' row n against the weights' column d. -/
def proj (X : (⟨3, ![8, 2048, 128]⟩ : Shape).Idx → EReal) (W : (⟨2, ![128, 2048]⟩ : Shape).Idx → EReal)
    (b : Fin 8) (n d : Fin 2048) : EReal :=
  ∑ f : Fin 128, X (ix3 b n f) * W (ix2 f d)

section
variable (P : Fin 2048 → Fin 2048 → EReal) (β : Fin 2048 → EReal)

/-- Query row n against key row m, plus the key's bias. -/
def score (n m : Fin 2048) : EReal := (∑ d : Fin 2048, P n d * P m d) + β m

/-- The largest score of query row n. -/
def top (n : Fin 2048) : EReal := (Finset.univ : Finset (Fin 2048)).fold max negInf (fun m => score P β n m)

/-- The unnormalized weight of key m for query n. -/
def mass (n m : Fin 2048) : EReal := Ideal.exp (score P β n m - top P β n)

/-- The normalizer of query row n. -/
def total (n : Fin 2048) : EReal := ∑ m : Fin 2048, mass P β n m

/-- The weighted sum of the value rows for query n, at column d. -/
def attend (n d : Fin 2048) : EReal := ∑ m : Fin 2048, Ideal.div (mass P β n m) (total P β n) * P m d

end

/-- The whole result: attention over each batch entry's projection, the bias read per key. -/
def result (X : (⟨3, ![8, 2048, 128]⟩ : Shape).Idx → EReal) (W : (⟨2, ![128, 2048]⟩ : Shape).Idx → EReal)
    (bias : (⟨1, ![2048]⟩ : Shape).Idx → EReal) : (⟨3, ![8, 2048, 2048]⟩ : Shape).Idx → EReal :=
  fun i => attend (proj X W (i 0)) (fun m => bias (ix1 m)) (i 1) (i 2)

end Cert.Attention

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The two stored values of the kernel body, read at an index, on the extended reals.

  The first is the projection: a [2048, 128] by [128, 2048] product into zero, so its entry (n, d) is the sum over f
  of features (n, f) times weights (f, d). The second is the output block. From 512 query rows q, the whole matrix S
  and a bias row it forms scores (q against the transpose of S, plus the bias of the key), subtracts each row's
  maximum, exponentiates, divides by each row's sum, and multiplies by S. When the query rows are rows of S itself —
  row r of q is row (row r) of S — entry (r, d) of the block is the attention of S at (row r, d). Changes of float
  format are the identity here, and a row statistic kept as a unit axis and broadcast back reads the statistic.
-/
import proofs.«135426_j85718957293654_2_alg».proof.Proof.Gen.KernelIdeal.Skeleton
import proofs.«135426_j85718957293654_2_alg».proof.Proof.Attention
import proofs.«135426_j85718957293654_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option pp.deepTerms false
set_option pp.maxSteps 3000

noncomputable section

open Idealize.ShloMosaic Idealize.ShloMosaic.ValueIdx

namespace Cert.KernelIdeal.Payload

open Cert.KernelIdeal Cert.KernelIdeal.Gen Cert.Attention

/-- The dimension record of the projection product, and of the two products of the attention. -/
abbrev dProj := dot_S2048x128_S128x2048_S2048x2048_1_0_0_1_n_n
abbrev dAtt := dot_S512x2048_S2048x2048_S512x2048_1_0_0_1_n_n

/-! ## The products read at an index -/

theorem proj_lhs0 (i : S2048x2048.Idx) (q : dProj.contr.Idx) : (dProj.lhsIdx i q 0).val = (i 0).val := by
  unfold DotDims.lhsIdx
  rw [dif_neg (show ¬(0 : Fin S2048x128.rank) ∈ dProj.lhsBatch by decide),
    dif_pos (show (0 : Fin S2048x128.rank) ∈ dProj.lhsNonContracting by decide)]
  rfl
theorem proj_rhs1 (i : S2048x2048.Idx) (q : dProj.contr.Idx) : (dProj.rhsIdx i q 1).val = (i 1).val := by
  unfold DotDims.rhsIdx
  rw [dif_neg (show ¬(1 : Fin S128x2048.rank) ∈ dProj.rhsBatch by decide),
    dif_pos (show (1 : Fin S128x2048.rank) ∈ dProj.rhsNonContracting by decide)]
  rfl
theorem att_lhs0 (i : S512x2048.Idx) (q : dAtt.contr.Idx) : (dAtt.lhsIdx i q 0).val = (i 0).val := by
  unfold DotDims.lhsIdx
  rw [dif_neg (show ¬(0 : Fin S512x2048.rank) ∈ dAtt.lhsBatch by decide),
    dif_pos (show (0 : Fin S512x2048.rank) ∈ dAtt.lhsNonContracting by decide)]
  rfl
theorem att_rhs1 (i : S512x2048.Idx) (q : dAtt.contr.Idx) : (dAtt.rhsIdx i q 1).val = (i 1).val := by
  unfold DotDims.rhsIdx
  rw [dif_neg (show ¬(1 : Fin S2048x2048.rank) ∈ dAtt.rhsBatch by decide),
    dif_pos (show (1 : Fin S2048x2048.rank) ∈ dAtt.rhsNonContracting by decide)]
  rfl

/-- The projection product into zero, at (n, d): rows of the left against columns of the right. -/
theorem matmul_proj_apply {φ₁ φ₂ : FTy} (l : FVec Ideal S2048x128 φ₁) (r : FVec Ideal S128x2048 φ₂) (n d : Fin 2048) :
    matmul dProj none l r (constant (F := Ideal) S2048x2048 .f32 0x00000000#32) (ix2 n d)
      = ∑ f : Fin 128, l (ix2 n f) * r (ix2 f d) := by
  simp only [matmul]
  rw [Ideal.matmul_constant_zero_apply, ← Equiv.sum_comp (contrEquiv1 dProj 128 rfl rfl).symm]
  refine Finset.sum_congr rfl fun k _ => ?_
  have hk := contrEquiv1_symm_val dProj 128 rfl rfl k
  have el : dProj.lhsIdx (ix2 n d) ((contrEquiv1 dProj 128 rfl rfl).symm k) = ix2 n k := funext fun a => Fin.ext (by
    match a with
    | ⟨0, _⟩ => exact proj_lhs0 _ _
    | ⟨1, _⟩ => exact (dProj.lhsIdx_val_of_single rfl _ _).trans hk)
  have er : dProj.rhsIdx (ix2 n d) ((contrEquiv1 dProj 128 rfl rfl).symm k) = ix2 k d := funext fun a => Fin.ext (by
    match a with
    | ⟨0, _⟩ => exact (dProj.rhsIdx_val_of_single rfl _ _).trans hk
    | ⟨1, _⟩ => exact proj_rhs1 _ _)
  rw [el, er]

/-- A [512, 2048] by [2048, 2048] product into zero, at (r, c). -/
theorem matmul_att_apply {φ₁ φ₂ : FTy} (l : FVec Ideal S512x2048 φ₁) (r : FVec Ideal S2048x2048 φ₂) (p : Fin 512) (c : Fin 2048) :
    matmul dAtt none l r (constant (F := Ideal) S512x2048 .f32 0x00000000#32) (ix2 p c)
      = ∑ k : Fin 2048, l (ix2 p k) * r (ix2 k c) := by
  simp only [matmul]
  rw [Ideal.matmul_constant_zero_apply, ← Equiv.sum_comp (contrEquiv1 dAtt 2048 rfl rfl).symm]
  refine Finset.sum_congr rfl fun k _ => ?_
  have hk := contrEquiv1_symm_val dAtt 2048 rfl rfl k
  have el : dAtt.lhsIdx (ix2 p c) ((contrEquiv1 dAtt 2048 rfl rfl).symm k) = ix2 p k := funext fun a => Fin.ext (by
    match a with
    | ⟨0, _⟩ => exact att_lhs0 _ _
    | ⟨1, _⟩ => exact (dAtt.lhsIdx_val_of_single rfl _ _).trans hk)
  have er : dAtt.rhsIdx (ix2 p c) ((contrEquiv1 dAtt 2048 rfl rfl).symm k) = ix2 k c := funext fun a => Fin.ext (by
    match a with
    | ⟨0, _⟩ => exact (dAtt.rhsIdx_val_of_single rfl _ _).trans hk
    | ⟨1, _⟩ => exact att_rhs1 _ _)
  rw [el, er]

/-! ## Row statistics -/

/-- A row's maximum, folded from -∞ over the row's 2048 entries. -/
theorem rowMax_apply (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r)
      = (Finset.univ : Finset (Fin 2048)).fold max negInf (fun m => s (ix2 r m)) := by
  refine (Ideal.multiReduction_maximumf_single s _ h hφ hacc (ix1 r)).trans ?_
  refine Finset.fold_congr fun m _ => ?_
  exact congrArg s (funext fun a => Fin.ext (by match a with | ⟨0, _⟩ => rfl | ⟨1, _⟩ => rfl))

/-- A row's sum over its 2048 entries. -/
theorem rowSum_apply (s : FVec Ideal S512x2048 .f32) (h : S512x2048.Reduces [1] S512) (hφ : FKind.Formats .f32)
    (hacc : (0x00000000#32 : BitVec 32) = FKind.add.neutral .f32 hφ) (r : Fin 512) :
    multiReduction .add [1] S512 s 0x00000000#32 h hφ hacc (ix1 r) = ∑ m : Fin 2048, s (ix2 r m) := by
  refine (Ideal.multiReduction_add_single s _ h hφ hacc (ix1 r)).trans ?_
  refine Finset.sum_congr rfl fun m _ => ?_
  exact congrArg s (funext fun a => Fin.ext (by match a with | ⟨0, _⟩ => rfl | ⟨1, _⟩ => rfl))

/-- A row statistic kept as a column and broadcast back along the row reads the statistic of that row. -/
theorem keep_apply (v : FVec Ideal S512 .f32) (h1 : S512.ShapeCasts S512x1) (h2 : S512x1.Broadcasts S512x2048)
    (r : Fin 512) (m : Fin 2048) : broadcastTo S512x2048 (shapeCast S512x1 v h1) h2 (ix2 r m) = v (ix1 r) :=
  (Cert.Keepdims.broadcastTo_a1_ab_apply _ h2 r m).trans (Cert.Keepdims.shapeCast_a_a1_apply v h1 r 0)

/-! ## The projection -/

/-- Entry (n, d) of the stored projection: features' row n against the weights' column d. -/
theorem pay1_apply (x0 : Vec Ideal S1x2048x128 .f32) (x1 : Vec Ideal S128x2048 .f32) (n d : Fin 2048) :
    k0_pay1 x0 x1 (ix2 n d) = ∑ f : Fin 128, x0 (ix3 (0 : Fin 1) n f) * x1 (ix2 f d) := by
  unfold k0_pay1
  rw [shapeCast_self]
  refine (matmul_proj_apply _ _ n d).trans ?_
  refine Finset.sum_congr rfl fun f _ => ?_
  exact congrArg (· * _) (shapeCast_1ab_ab_apply x0 _ n f)

/-! ## The output block -/

/-- A score: the query row against a row of the matrix (the product with the transpose), plus that key's bias. -/
theorem scores_apply (q : FVec Ideal S512x2048 .bf16) (S : FVec Ideal S2048x2048 .bf16) (bias : FVec Ideal S1x2048 .f32)
    (ht : S2048x2048.Transposes [1, 0] S2048x2048) (hc : S1x2048.ShapeCasts S1x2048) (hb : S1x2048.Broadcasts S512x2048)
    (r : Fin 512) (m : Fin 2048) :
    addf (matmul dAtt none q (transpose S2048x2048 [1, 0] S ht) (constant (F := Ideal) S512x2048 .f32 0x00000000#32))
        (broadcastTo S512x2048 (shapeCast S1x2048 bias hc) hb) (ix2 r m)
      = (∑ k : Fin 2048, q (ix2 r k) * S (ix2 m k)) + bias (ix2 (0 : Fin 1) m) := by
  rw [addf_apply]
  refine congrArg₂ (· + ·) ?_ ?_
  · refine (matmul_att_apply (φ₁ := .bf16) (φ₂ := .bf16) q _ r m).trans (Finset.sum_congr rfl fun k _ => ?_)
    exact congrArg (_ * ·) (transpose_ix2_apply S ht k m)
  · rw [shapeCast_self]
    exact broadcastTo_1b_ab_apply bias hb r m

/-- One row of weights from one row of scores: each score less the row's maximum, exponentiated, over the row's sum of
    those. Stated for any score matrix s whose row r is σ. -/
theorem softmax_apply (s : FVec Ideal S512x2048 .f32) (hR : S512x2048.Reduces [1] S512) (hφ : FKind.Formats .f32)
    (hmax : (0xFF800000#32 : BitVec 32) = FKind.maximumf.neutral .f32 hφ)
    (hadd : (0x00000000#32 : BitVec 32) = FKind.add.neutral .f32 hφ)
    (h1 : S512.ShapeCasts S512x1) (h2 : S512x1.Broadcasts S512x2048) (r : Fin 512) (σ : Fin 2048 → EReal)
    (hs : ∀ m, s (ix2 r m) = σ m) (m : Fin 2048) :
    divf (exp (subf s (broadcastTo S512x2048 (shapeCast S512x1 (multiReduction .maximumf [1] S512 s 0xFF800000#32 hR hφ hmax) h1) h2)))
      (broadcastTo S512x2048 (shapeCast S512x1 (multiReduction .add [1] S512
        (exp (subf s (broadcastTo S512x2048 (shapeCast S512x1 (multiReduction .maximumf [1] S512 s 0xFF800000#32 hR hφ hmax) h1) h2)))
        0x00000000#32 hR hφ hadd) h1) h2) (ix2 r m)
      = Ideal.div (Ideal.exp (σ m - (Finset.univ : Finset (Fin 2048)).fold max negInf σ))
          (∑ m' : Fin 2048, Ideal.exp (σ m' - (Finset.univ : Finset (Fin 2048)).fold max negInf σ)) := by
  have hσ : (fun m => s (ix2 r m)) = σ := funext hs
  have hexp : ∀ m', exp (subf s (broadcastTo S512x2048 (shapeCast S512x1 (multiReduction .maximumf [1] S512 s 0xFF800000#32 hR hφ hmax) h1) h2)) (ix2 r m')
      = Ideal.exp (σ m' - (Finset.univ : Finset (Fin 2048)).fold max negInf σ) := fun m' => by
    show Ideal.exp (s (ix2 r m') - broadcastTo S512x2048 _ h2 (ix2 r m')) = _
    rw [keep_apply, rowMax_apply, hσ, hs]
  rw [divf_apply, hexp, keep_apply, rowSum_apply]
  simp only [hexp]

/-- Entry (r, d) of the output block, when the query rows are rows of the matrix itself: the attention of the matrix
    at (row r, d), the bias read along its one row. -/
theorem pay2_apply (q : FVec Ideal S512x2048 .bf16) (S : FVec Ideal S2048x2048 .bf16) (bias : FVec Ideal S1x2048 .f32)
    (row : Fin 512 → Fin 2048) (hq : ∀ r k, q (ix2 r k) = S (ix2 (row r) k)) (r : Fin 512) (d : Fin 2048) :
    k0_pay2 (F := Ideal) q S bias (ix3 (0 : Fin 1) r d)
      = attend (fun n k => S (ix2 n k)) (fun m => bias (ix2 (0 : Fin 1) m)) (row r) d := by
  unfold k0_pay2
  refine (shapeCast_ab_1ab_apply _ _ 0 r d).trans ?_
  refine (matmul_att_apply (φ₁ := .bf16) (φ₂ := .bf16) _ S r d).trans ?_
  unfold attend
  refine Finset.sum_congr rfl fun m _ => congrArg (· * _) ?_
  refine (softmax_apply _ _ _ _ _ _ _ r (score (fun n k => S (ix2 n k)) (fun m => bias (ix2 (0 : Fin 1) m)) (row r)) (fun m' => ?_) m).trans rfl
  refine (scores_apply q S bias _ _ _ r m').trans ?_
  unfold score
  exact congrArg (· + _) (Finset.sum_congr rfl fun k _ => congrArg (· * _) (hq r k))

end Cert.KernelIdeal.Payload

end
-- ==== Proof.Inputs.lean ====
/-
  What a grid point finds.

  The grid has 32 points; point t works on batch entry t / 4 and on query rows 512·(t mod 4) … 512·(t mod 4) + 511. Its
  three input blocks are that batch entry's features, all the weights, and the bias laid out as one row; the 512 query
  rows it reads of a [2048, 2048] matrix are the rows from 512·(t mod 4) on.
-/
import proofs.«135426_j85718957293654_2_alg».proof.Proof.Gen.KernelIdeal.Value
import proofs.«135426_j85718957293654_2_alg».proof.Proof.Pieces
import proofs.«135426_j85718957293654_2_alg».proof.Proof.Payload
import proofs.«135426_j85718957293654_2_alg».proof.Proof.Attention
import Idealize.ShloMosaic.Lib.Pipeline.Value
import Idealize.ShloMosaic.Lib.StableHlo.Run
import Idealize.ShloMosaic.Lib.ValueLayout

set_option pp.deepTerms false
set_option pp.maxSteps 3000
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inputs

open Cert.KernelIdeal Cert.KernelIdeal.Gen Cert.Attention

variable (m : (ℓ : Loc nD τ sig) → Buf (Elt Ideal) ℓ) (ρ : Dev nD → PrngReg)

/-! ## The grid, decided once over its 32 points -/

/-- Point t has coordinates (t / 4, t mod 4); the feature window and the output window move with the batch entry, the
    output window also with the query tile; the weights' and the bias's windows never move. -/
theorem grid_facts : ∀ t : Fin cfg0.N,
    (grid0.coords t 0).val = t.val / 4 ∧ (grid0.coords t 1).val = t.val % 4
    ∧ win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0 :=
  (by decide +kernel : ∀ t : Fin grid0.N, _)

/-- The batch entry of the point at position n. -/
def batchOf (n : ℕ) : Fin 8 := ⟨n / 4 % 8, Nat.mod_lt _ (by decide)⟩

/-- The query row, in the whole matrix, of row r of the tile of the point at position n. -/
def rowOf (n : ℕ) (r : Fin 512) : Fin 2048 := ⟨(512 * (n % 4) + r.val) % 2048, Nat.mod_lt _ (by decide)⟩

/-! ## The input blocks -/

/-- The feature block of point t is batch entry t / 4 of the features. -/
theorem feat_blk (c : Dev nD) (t : Fin cfg0.N) (n : Fin 2048) (f : Fin 128) :
    (iblk m c 0 t : Vec Ideal S1x2048x128 .f32) (ix3 (0 : Fin 1) n f)
      = m ((c : Thread nD τ).loc main_arg0) (ix3 (batchOf t.val) n f) := by
  obtain ⟨-, -, e0, e1, e2, -⟩ := grid_facts t
  have hN : t.val < 32 := lt_of_lt_of_eq t.isLt (show cfg0.N = 32 from N_0)
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val / 4 % 8; omega
  | ⟨1, _⟩ => show win0_0.index t (1 : Fin 3) * 2048 + 1 * n.val = n.val; omega
  | ⟨2, _⟩ => show win0_0.index t (2 : Fin 3) * 128 + 1 * f.val = f.val; omega

/-- The weights' block is all the weights, at every point. -/
theorem weight_blk (c : Dev nD) (t : Fin cfg0.N) (f : Fin 128) (d : Fin 2048) :
    (iblk m c 1 t : Vec Ideal S128x2048 .f32) (ix2 f d) = m ((c : Thread nD τ).loc main_arg2) (ix2 f d) := by
  obtain ⟨-, -, -, -, -, e0, e1, -⟩ := grid_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t (0 : Fin 2) * 128 + 1 * f.val = f.val; omega
  | ⟨1, _⟩ => show win0_1.index t (1 : Fin 2) * 2048 + 1 * d.val = d.val; omega

/-- The bias row the region finds is the bias vector laid out as one row. -/
theorem bias_row (c : Dev nD) :
    (V m c main_v0 : S1x2048.Idx → EReal)
      = shapeCast S1x2048 (m ((c : Thread nD τ).loc main_arg3)) shapeCasts_S2048_S1x2048 := by
  dsimp only [Gen.V, Gen.hostOps0]
  after_results
  rfl

/-- The bias block is that row, at every point: entry k of the bias vector at (0, k). -/
theorem bias_blk (c : Dev nD) (t : Fin cfg0.N) (k : Fin 2048) :
    (iblk m c 2 t : Vec Ideal S1x2048 .f32) (ix2 (0 : Fin 1) k) = m ((c : Thread nD τ).loc main_arg3) (ix1 k) := by
  obtain ⟨-, -, -, -, -, -, -, e0, e1, -⟩ := grid_facts t
  unfold iblk
  rw [View.read_apply]
  show V m c main_v0 _ = _
  rw [bias_row]
  refine (congrArg _ (funext fun a => Fin.ext ?_)).trans (shapeCast_a_1a_apply (m ((c : Thread nD τ).loc main_arg3)) _ (0 : Fin 1) k)
  match a with
  | ⟨0, _⟩ => show win0_2.index t (0 : Fin 2) * 1 + 1 * 0 = 0; omega
  | ⟨1, _⟩ => show win0_2.index t (1 : Fin 2) * 2048 + 1 * k.val = k.val; omega

/-! ## The query rows -/

/-- Row r of the query rows of point t is row 512·(t mod 4) + r of the matrix. -/
theorem rows_apply (t : Fin cfg0.N) (S : Vec Ideal S2048x2048 .bf16) (r : Fin 512) (k : Fin 2048) :
    Pieces.rows (grid0.coords t) S (ix2 r k) = S (ix2 (rowOf t.val r) k) := by
  obtain ⟨-, c1, -⟩ := grid_facts t
  have e := Gen.k0_off1_eq (grid0.coords t)
  unfold Pieces.rows
  show S _ = S _
  refine congrArg S (funext fun a => Fin.ext ?_)
  match a with
  | ⟨0, _⟩ =>
    show k0_off1 (grid0.coords t) 0 + 1 * r.val = (512 * (t.val % 4) + r.val) % 2048
    rw [e]
    show 512 * (grid0.coords t 1).val + 1 * r.val = _
    have := r.isLt
    omega
  | ⟨1, _⟩ =>
    show k0_off1 (grid0.coords t) 1 + 1 * k.val = k.val
    rw [e]
    show 0 + 1 * k.val = _
    omega

end Cert.KernelIdeal.Inputs

end
-- ==== Proof.Blocks.lean ====
/-
  From grid points to the whole result array.

  The scratch holds the batch entry's projection from the entry's first point on (stored there, kept by the three
  points after it), so every point's output block is 512 rows of the attention of its batch entry's projection; the 32
  blocks tile the result array, which therefore ends at the specification of the argument arrays.
-/
import proofs.«135426_j85718957293654_2_alg».proof.Proof.Inputs

set_option pp.deepTerms false
set_option pp.maxSteps 3000
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attention Cert.KernelIdeal.Inputs

variable (m : (ℓ : Loc nD τ sig) → Buf (Elt Ideal) ℓ) (ρ : Dev nD → PrngReg)

/-! ## The scratch -/

/-- The projection of batch entry b as a [2048, 2048] matrix. -/
def projMat (c : Dev nD) (b : Fin 8) : Vec Ideal S2048x2048 .bf16 :=
  fun y => proj (m ((c : Thread nD τ).loc main_arg0)) (m ((c : Thread nD τ).loc main_arg2)) b (y 0) (y 1)

/-- What a batch entry's first point stores is the projection of its batch entry. -/
theorem stored_proj (c : Dev nD) (t : Fin cfg0.N) :
    k0_pay1 (F := Ideal) (iblk m c 0 t) (iblk m c 1 t) = projMat m c (batchOf t.val) := by
  funext y
  obtain ⟨n, d, rfl⟩ : ∃ (n d : Fin 2048), y = ix2 n d := ⟨y 0, y 1, eq_ix2 y⟩
  refine (Payload.pay1_apply (iblk m c 0 t) (iblk m c 1 t) n d).trans ?_
  show _ = proj _ _ (batchOf t.val) n d
  unfold proj
  refine Finset.sum_congr rfl fun f _ => ?_
  exact congrArg₂ (· * ·) (feat_blk m c t n f) (weight_blk m c t f d)

/-- At a batch entry's first point the scratch ends at that projection. -/
theorem scratch_first_point (c : Dev nD) (t : Fin cfg0.N) (h0 : t.val % 4 = 0) :
    (outsAt0 m c t.val t.isLt).2 = projMat m c (batchOf t.val) := by
  rw [outsAt0_A m c t h0]
  dsimp only
  exact (Pieces.scratch_first (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (iblk m c 0 t) (iblk m c 1 t) (iblk m c 2 t)).trans
    (stored_proj m c t)

/-- THE SCRATCH after the point at position n holds the projection of that point's batch entry: stored at the entry's
    first point, kept by the points after it — by induction on the position. -/
theorem scratch_eq (c : Dev nD) : ∀ (n : ℕ) (h : n < cfg0.N), (outsAt0 m c n h).2 = projMat m c (batchOf n)
  | 0, h => scratch_first_point m c ⟨0, h⟩ rfl
  | n + 1, h => by
    by_cases h0 : (n + 1) % 4 = 0
    · exact scratch_first_point m c ⟨n + 1, h⟩ h0
    · rw [outsAt0_B m c ⟨n + 1, h⟩ h0]
      simp only [sout0_B_0, Nat.add_sub_cancel]
      exact (scratch_eq c n _).trans (congrArg (projMat m c) (Fin.ext (by show n / 4 % 8 = (n + 1) / 4 % 8; omega)))

/-! ## The output block -/

/-- THE OUTPUT BLOCK of point t is the block function of the projection of its batch entry, in both cases. -/
theorem out_eq (c : Dev nD) (t : Fin cfg0.N) :
    (outsAt0 m c t.val t.isLt).1
      = k0_pay2 (F := Ideal) (Pieces.rows (grid0.coords t) (projMat m c (batchOf t.val))) (projMat m c (batchOf t.val)) (iblk m c 2 t) := by
  by_cases h0 : t.val % 4 = 0
  · rw [outsAt0_A m c t h0]
    dsimp only
    refine (Pieces.out_first (F := Ideal) c (grid0.coords t) (ms0_0 t) (hs0_0 t) (ms0_1 t) (hs0_1 t) (ms0_2 t) (hs0_2 t)
      (ms0_3 t) (hs0_3 t) scM0_0 (Memref.isWhole_whole _) ((hcond0_0 t).mpr h0) (iblk m c 0 t) (iblk m c 1 t) (iblk m c 2 t)).trans ?_
    rw [stored_proj m c t]
  · rw [outsAt0_B m c t h0]
    dsimp only
    refine (Pieces.out_carried (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    rw [scratch_eq m c (t.val - 1) _]
    have hb : batchOf (t.val - 1) = batchOf t.val := Fin.ext (by show (t.val - 1) / 4 % 8 = t.val / 4 % 8; omega)
    rw [hb]

/-- Entry (r, d) of it: the attention of the batch entry's projection at query row 512·(t mod 4) + r, column d. -/
theorem out_apply (c : Dev nD) (t : Fin cfg0.N) (r : Fin 512) (d : Fin 2048) :
    (outsAt0 m c t.val t.isLt).1 (ix3 (0 : Fin 1) r d)
      = attend (proj (m ((c : Thread nD τ).loc main_arg0)) (m ((c : Thread nD τ).loc main_arg2)) (batchOf t.val))
          (fun k => m ((c : Thread nD τ).loc main_arg3) (ix1 k)) (rowOf t.val r) d := by
  rw [out_eq m c t]
  refine (Payload.pay2_apply (Pieces.rows (grid0.coords t) (projMat m c (batchOf t.val))) (projMat m c (batchOf t.val)) (iblk m c 2 t)
    (rowOf t.val) (fun r k => rows_apply t _ r k) r d).trans ?_
  have hb : (fun k : Fin 2048 => (iblk m c 2 t : Vec Ideal S1x2048 .f32) (ix2 (0 : Fin 1) k))
      = fun k => m ((c : Thread nD τ).loc main_arg3) (ix1 k) := funext fun k => bias_blk m c t k
  rw [hb]
  rfl

/-! ## From blocks to the array -/

/-- WHAT POINT t WRITES BACK is block t of the specification of the argument arrays. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg2)) (m ((c : Thread nD τ).loc main_arg3))) := by
  obtain ⟨-, -, -, -, -, -, -, -, -, e0, e1, e2⟩ := grid_facts t
  have hN : t.val < 32 := lt_of_lt_of_eq t.isLt (show cfg0.N = 32 from N_0)
  rw [Value.flushed3]
  refine funext fun (y : S1x512x2048.Idx) => ?_
  show (outsAt0 m c t.val t.isLt).1 y = result _ _ _ (((cfg0.win 3).blk t).view.emb y)
  obtain ⟨u, r, d, rfl⟩ : ∃ (u : Fin 1) (r : Fin 512) (d : Fin 2048), y = ix3 u r d := ⟨y 0, y 1, y 2, eq_ix3 y⟩
  obtain rfl : u = 0 := Subsingleton.elim _ _
  rw [out_apply m c t r d]
  have hi : ((cfg0.win 3).blk t).view.emb (ix3 (0 : Fin 1) r d) = ix3 (batchOf t.val) (rowOf t.val r) d :=
    funext fun a => Fin.ext (by
      match a with
      | ⟨0, _⟩ => show win0_3.index t (0 : Fin 3) * 1 + 1 * 0 = t.val / 4 % 8; omega
      | ⟨1, _⟩ => show win0_3.index t (1 : Fin 3) * 512 + 1 * r.val = (512 * (t.val % 4) + r.val) % 2048; have := r.isLt; omega
      | ⟨2, _⟩ => show win0_3.index t (2 : Fin 3) * 2048 + 1 * d.val = d.val; omega)
  rw [hi]
  rfl

/-- An index of the result array is in point t's block iff each coordinate is in the block's range on its axis. -/
theorem mem_blk (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- THE COVER: index (b, n, d) is in the block of the point at position 4·b + n / 512. -/
theorem cover (i : S8x2048x2048.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  have hN : cfg0.N = 32 := N_0
  obtain ⟨t, tv⟩ : ∃ t : Fin cfg0.N, t.val = 4 * (i 0).val + (i 1).val / 512 := ⟨⟨4 * (i 0).val + (i 1).val / 512, by omega⟩, rfl⟩
  obtain ⟨-, -, -, -, -, -, -, -, -, e0, e1, e2⟩ := grid_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- THE ARRAY after the run is the specification of the argument arrays. -/
theorem final (c : Dev nD) : (dats m 0 c).arrAt 3 cfg0.N
    = result (m ((c : Thread nD τ).loc main_arg0)) (m ((c : Thread nD τ).loc main_arg2)) (m ((c : Thread nD τ).loc main_arg3)) :=
  (dats m 0 c).arrAt_eq_of_cover 3 _ (fun t _ => flushed_eq m c t) cover

/-! ## The run, read -/

/-- Every weakly fair execution of the idealized kernel terminates with its result array at the specification of its
    argument arrays, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.Reference.lean ====
/-
  The reference computes the specification.

  Its operations, read one at a time at an index given by coordinates: the first product is the projection; the second,
  with the bias broadcast along the keys, the scores; the maximum over the last axis, folded from -∞ and then joined
  once more with -∞ (which changes nothing), the row's top; the exponential of the difference the mass; the sum over
  the last axis from zero the total; the quotient the weight; and the last product the attention.
-/
import proofs.«135426_j85718957293654_2_alg».proof.Proof.Gen.ReferenceIdeal.Read
import proofs.«135426_j85718957293654_2_alg».proof.Proof.Attention

set_option pp.deepTerms false
set_option pp.maxSteps 3000

noncomputable section

open Idealize.ShloMosaic Idealize.ShloMosaic.ValueIdx

namespace Cert.ReferenceIdeal.Bridge

open Cert.ReferenceIdeal Cert.ReferenceIdeal.Gen Cert.ReferenceIdeal.Read Cert.Attention

variable (X : (⟨S8x2048x128, .f32⟩ : BufTy).Contents (Elt Ideal)) (W : (⟨S128x2048, .f32⟩ : BufTy).Contents (Elt Ideal))
  (bias : (⟨S2048, .f32⟩ : BufTy).Contents (Elt Ideal))

/-- The first product at (b, n, d) is the projection. -/
theorem v0_at (b : Fin 8) (n d : Fin 2048) : val_main_v0 (F := Ideal) X W (ix3 b n d) = proj X W b n d := by
  rw [val_main_v0_apply]
  unfold proj
  refine Finset.sum_congr rfl fun f _ => ?_
  have e1 : lidx_main_v0 (ix3 b n d) f = ix3 b n f :=
    funext fun a => Fin.ext (by match a with | ⟨0, _⟩ => rfl | ⟨1, _⟩ => rfl | ⟨2, _⟩ => rfl)
  have e2 : ridx_main_v0 (ix3 b n d) f = ix2 f d :=
    funext fun a => Fin.ext (by match a with | ⟨0, _⟩ => rfl | ⟨1, _⟩ => rfl)
  rw [e1, e2]

/-- The biased second product at (b, n, m) is the score of query n against key m. -/
theorem v4_at (b : Fin 8) (n m : Fin 2048) :
    val_main_v4 (F := Ideal) X W bias (ix3 b n m) = score (proj X W b) (fun m => bias (ix1 m)) n m := by
  rw [val_main_v4_apply, val_main_v1_apply, val_main_v3_apply, val_main_v2_apply]
  unfold score
  refine congrArg₂ (· + ·) (Finset.sum_congr rfl fun k _ => ?_) (congrArg bias ?_)
  · have e1 : lidx_main_v1 (ix3 b n m) k = ix3 b n k :=
      funext fun a => Fin.ext (by match a with | ⟨0, _⟩ => rfl | ⟨1, _⟩ => rfl | ⟨2, _⟩ => rfl)
    have e2 : ridx_main_v1 (ix3 b n m) k = ix3 b m k :=
      funext fun a => Fin.ext (by match a with | ⟨0, _⟩ => rfl | ⟨1, _⟩ => rfl | ⟨2, _⟩ => rfl)
    rw [e1, e2, v0_at, v0_at]
  · exact funext fun a => Fin.ext (by match a with | ⟨0, _⟩ => rfl)

/-- The maximum over the keys at (b, n), joined once more with -∞, is the row's top. -/
theorem v7_at (b : Fin 8) (n : Fin 2048) :
    val_main_v7 (F := Ideal) X W bias (ix2 b n) = top (proj X W b) (fun m => bias (ix1 m)) n := by
  rw [val_main_v7_apply, val_main_v6_apply, val_main_cst_0_apply]
  show max negInf (val_main_v5 (F := Ideal) X W bias (ix2 b n)) = _
  rw [max_negInf]
  unfold val_main_v5
  rw [Host.reduce_eq_fold_single FloatOps.maximumf _ _ reducesTo_S8x2048x2048_S8x2048_d2 (by decide) h_S_]
  unfold top
  refine Finset.fold_congr fun (m : Fin 2048) _ => ?_
  have e : (show S8x2048x2048.Reduces [2] S8x2048 by decide).lift (ix2 b n) m = ix3 b n m :=
    funext fun a => Fin.ext (by match a with | ⟨0, _⟩ => rfl | ⟨1, _⟩ => rfl | ⟨2, _⟩ => rfl)
  show val_main_v4 (F := Ideal) X W bias _ = _
  rw [e, v4_at]

/-- The exponential of the score less the top, at (b, n, m), is the mass. -/
theorem v11_at (b : Fin 8) (n m : Fin 2048) :
    val_main_v11 (F := Ideal) X W bias (ix3 b n m) = mass (proj X W b) (fun m => bias (ix1 m)) n m := by
  rw [val_main_v11_apply, val_main_v10_apply, val_main_v9_apply, val_main_v8_apply]
  have e : idx_main_v8 (idx_main_v9 (ix3 b n m)) = ix2 b n :=
    funext fun a => Fin.ext (by match a with | ⟨0, _⟩ => rfl | ⟨1, _⟩ => rfl)
  rw [e, v4_at, v7_at]
  rfl

/-- The sum over the keys from zero, at (b, n), is the total. -/
theorem v12_at (b : Fin 8) (n : Fin 2048) :
    val_main_v12 (F := Ideal) X W bias (ix2 b n) = total (proj X W b) (fun m => bias (ix1 m)) n := by
  rw [val_main_v12_apply, val_main_cst_1_apply]
  show Ideal.ofBits .f32 0x00000000#32 + _ = _
  rw [Ideal.ofBits_zero_f32, zero_add]
  unfold total
  refine Finset.sum_congr rfl fun k _ => ?_
  have e : idx_main_v12 (ix2 b n) k = ix3 b n k :=
    funext fun a => Fin.ext (by match a with | ⟨0, _⟩ => rfl | ⟨1, _⟩ => rfl | ⟨2, _⟩ => rfl)
  rw [e, v11_at]

/-- The quotient at (b, n, m) is the weight of key m for query n. -/
theorem v15_at (b : Fin 8) (n m : Fin 2048) :
    val_main_v15 (F := Ideal) X W bias (ix3 b n m)
      = Ideal.div (mass (proj X W b) (fun m => bias (ix1 m)) n m) (total (proj X W b) (fun m => bias (ix1 m)) n) := by
  rw [val_main_v15_apply, val_main_v14_apply, val_main_v13_apply]
  have e : idx_main_v13 (idx_main_v14 (ix3 b n m)) = ix2 b n :=
    funext fun a => Fin.ext (by match a with | ⟨0, _⟩ => rfl | ⟨1, _⟩ => rfl)
  rw [e, v11_at, v12_at]
  rfl

/-- The last product at (b, n, d) is the attention. -/
theorem v16_at (b : Fin 8) (n d : Fin 2048) :
    val_main_v16 (F := Ideal) X W bias (ix3 b n d) = attend (proj X W b) (fun m => bias (ix1 m)) n d := by
  rw [val_main_v16_apply]
  unfold attend
  refine Finset.sum_congr rfl fun k _ => ?_
  have e1 : lidx_main_v16 (ix3 b n d) k = ix3 b n k :=
    funext fun a => Fin.ext (by match a with | ⟨0, _⟩ => rfl | ⟨1, _⟩ => rfl | ⟨2, _⟩ => rfl)
  have e2 : ridx_main_v16 (ix3 b n d) k = ix3 b k d :=
    funext fun a => Fin.ext (by match a with | ⟨0, _⟩ => rfl | ⟨1, _⟩ => rfl | ⟨2, _⟩ => rfl)
  rw [e1, e2, v15_at, v0_at]

/-- So the reference's result is the specification, index by index. -/
theorem result_eq : val_main_v16 (F := Ideal) X W bias = result X W bias := by
  funext i
  obtain ⟨b, n, d, rfl⟩ : ∃ (b : Fin 8) (n d : Fin 2048), i = ix3 b n d := ⟨i 0, i 1, i 2, eq_ix3 i⟩
  exact v16_at X W bias b n d

end Cert.ReferenceIdeal.Bridge

end
-- ==== Proof.lean ====
/- The kernel and its reference compute one function of the features X, the weights W and the bias β, on the extended reals:
   for each batch entry b, with P = X_b · W its [2048, 2048] projection,

       result (b, n, d) = Σ_m  w(n, m) · P(m, d),   w(n, m) = exp (s(n, m) - max_m' s(n, m')) / Σ_m' exp (s(n, m') - max_m'' s(n, m'')),
       s(n, m) = Σ_k P(n, k) · P(m, k) + β(m)

   (Proof/Attention.lean). The kernel works through a grid of 32 points, four per batch entry: the first of the four
   stores P in a scratch the other three keep, and each point writes 512 rows of the result from rows of that scratch
   (Proof/Pieces.lean: what a point leaves, from what it finds; Proof/Payload.lean: the two stored values read at an
   index; Proof/Blocks.lean: the scratch holds P at every point, by induction on the point, and the 32 blocks tile the
   result). The reference computes the same sums operation by operation (Proof/Reference.lean); it takes the maximum
   with -∞ once more than the kernel does, which changes nothing. Both sides add and multiply the same terms in the same
   arrangement, so no law of arithmetic beyond that is used, and the inputs' finiteness is never needed. The kernel's
   idealization rewrote no operation, so that claim is trivial; the three frames are the generated ones, the
   reference's its generated run with the result forgotten. -/
import proofs.«135426_j85718957293654_2_alg».proof.Defs
import proofs.«135426_j85718957293654_2_alg».proof.Proof.Gen.Kernel
import proofs.«135426_j85718957293654_2_alg».proof.Proof.Gen.Kernel.Skeleton
import proofs.«135426_j85718957293654_2_alg».proof.Proof.Gen.Kernel.Launch
import proofs.«135426_j85718957293654_2_alg».proof.Proof.Gen.Kernel.Points
import proofs.«135426_j85718957293654_2_alg».proof.Proof.Gen.Kernel.Frame
import proofs.«135426_j85718957293654_2_alg».proof.Proof.Gen.KernelIdeal
import proofs.«135426_j85718957293654_2_alg».proof.Proof.Gen.KernelIdeal.Skeleton
import proofs.«135426_j85718957293654_2_alg».proof.Proof.Gen.KernelIdeal.Launch
import proofs.«135426_j85718957293654_2_alg».proof.Proof.Gen.KernelIdeal.Points
import proofs.«135426_j85718957293654_2_alg».proof.Proof.Gen.KernelIdeal.Frame
import proofs.«135426_j85718957293654_2_alg».proof.Proof.Gen.ReferenceIdeal
import proofs.«135426_j85718957293654_2_alg».proof.Proof.Gen.KernelIdeal.Value
import proofs.«135426_j85718957293654_2_alg».proof.Proof.Gen.ReferenceIdeal.Run
import proofs.«135426_j85718957293654_2_alg».proof.Proof.Gen.ReferenceIdeal.Read
import proofs.«135426_j85718957293654_2_alg».proof.Proof.Gen.Pre_finite_inputs
import proofs.«135426_j85718957293654_2_alg».proof.Proof.Blocks
import proofs.«135426_j85718957293654_2_alg».proof.Proof.Reference
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the specification of its arguments, and the reference's
    at the same specification of arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Bridge.result_eq, (hagree c).1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
